-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x6 : Shape := ⟨2, ![600000, 6]⟩
abbrev S100000 : Shape := ⟨1, ![100000]⟩
abbrev S600000x2 : Shape := ⟨2, ![600000, 2]⟩
abbrev S6x128 : Shape := ⟨2, ![6, 128]⟩
abbrev S100x128 : Shape := ⟨2, ![100, 128]⟩
abbrev S384x128 : Shape := ⟨2, ![384, 128]⟩
abbrev S128 : Shape := ⟨1, ![128]⟩
abbrev S_ : Shape := ⟨0, ![]⟩

class Facts : Prop where
  bcast_S_S600000x6 : S_.BroadcastsInDim S600000x6 (![] : Fin 0 → Fin S600000x6.rank)
  reducesTo_S600000x6_S_d0_1 : S600000x6.ReducesTo [0, 1] S_
  h_S_ : 0 < S_.numel
  bcast_S_S6x128 : S_.BroadcastsInDim S6x128 (![] : Fin 0 → Fin S6x128.rank)
  reducesTo_S6x128_S_d0_1 : S6x128.ReducesTo [0, 1] S_
  bcast_S_S100x128 : S_.BroadcastsInDim S100x128 (![] : Fin 0 → Fin S100x128.rank)
  reducesTo_S100x128_S_d0_1 : S100x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S600000x6 .f32) (main_arg1 : IVec S100000 32) (main_arg2 : IVec S600000x2 32) (main_arg3 : FVec F S6x128 .f32) (main_arg4 : FVec F S100x128 .f32) (main_arg5 : FVec F S384x128 .f32) (main_arg6 : FVec F S128 .f32) : IVec S_ 1 :=
  let main_v0 : FVec F S600000x6 .f32 := Host.absf main_arg0
  let main_cst : FVec F S_ .f32 := constant S_ .f32 0x7F800000#32
  let main_v1 : FVec F S600000x6 .f32 := broadcastInDim S600000x6 ![] bcast_S_S600000x6 main_cst
  let main_v2 : IVec S600000x6 1 := cmpf .olt main_v0 main_v1
  let main_c : IVec S_ 1 := constantI S_ 1 1#1
  let main_v3 : IVec S_ 1 := (fun x v => Host.reduce IntOp.andi x v reducesTo_S600000x6_S_d0_1 h_S_) main_v2 main_c
  let main_v4 : FVec F S6x128 .f32 := Host.absf main_arg3
  let main_cst_0 : FVec F S_ .f32 := constant S_ .f32 0x7F800000#32
  let main_v5 : FVec F S6x128 .f32 := broadcastInDim S6x128 ![] bcast_S_S6x128 main_cst_0
  let main_v6 : IVec S6x128 1 := cmpf .olt main_v4 main_v5
  let main_c_1 : IVec S_ 1 := constantI S_ 1 1#1
  let main_v7 : IVec S_ 1 := (fun x v => Host.reduce IntOp.andi x v reducesTo_S6x128_S_d0_1 h_S_) main_v6 main_c_1
  let main_v8 : IVec S_ 1 := andi main_v3 main_v7
  let main_v9 : FVec F S100x128 .f32 := Host.absf main_arg4
  let main_cst_2 : FVec F S_ .f32 := constant S_ .f32 0x7F800000#32
  let main_v10 : FVec F S100x128 .f32 := broadcastInDim S100x128 ![] bcast_S_S100x128 main_cst_2
  let main_v11 : IVec S100x128 1 := cmpf .olt main_v9 main_v10
  let main_c_3 : IVec S_ 1 := constantI S_ 1 1#1
  let main_v12 : IVec S_ 1 := (fun x v => Host.reduce IntOp.andi x v reducesTo_S100x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_v13 main_v16
-- ==== Kernel.lean ====
abbrev S600000x6 : Shape := ⟨2, ![600000, 6]⟩
abbrev S100000 : Shape := ⟨1, ![100000]⟩
abbrev S600000x2 : Shape := ⟨2, ![600000, 2]⟩
abbrev S6x128 : Shape := ⟨2, ![6, 128]⟩
abbrev S100x128 : Shape := ⟨2, ![100, 128]⟩
abbrev S384x128 : Shape := ⟨2, ![384, 128]⟩
abbrev S128 : Shape := ⟨1, ![128]⟩
abbrev S_ : Shape := ⟨0, ![]⟩
abbrev S100000x1 : Shape := ⟨2, ![100000, 1]⟩
abbrev S100000x128 : Shape := ⟨2, ![100000, 128]⟩
abbrev S600000x1 : Shape := ⟨2, ![600000, 1]⟩
abbrev S600000 : Shape := ⟨1, ![600000]⟩
abbrev S600000x128 : Shape := ⟨2, ![600000, 128]⟩
abbrev S128x128 : Shape := ⟨2, ![128, 128]⟩
abbrev S1x128 : Shape := ⟨2, ![1, 128]⟩
abbrev S3000x128 : Shape := ⟨2, ![3000, 128]⟩
abbrev S3000x6 : Shape := ⟨2, ![3000, 6]⟩

abbrev nBuf : Space → Nat
  | .hbm => 43
  | .vmem => 13
  | .smem => 0
  | _ => 0

abbrev bufTy : (tb : Table) → Fin (tcTables nBuf tb) → BufTy
  | .hbm, ⟨0, _⟩ => ⟨S600000x6, .f32⟩
  | .hbm, ⟨1, _⟩ => ⟨S100000, .i32⟩
  | .hbm, ⟨2, _⟩ => ⟨S600000x2, .i32⟩
  | .hbm, ⟨3, _⟩ => ⟨S6x128, .f32⟩
  | .hbm, ⟨4, _⟩ => ⟨S100x128, .f32⟩
  | .hbm, ⟨5, _⟩ => ⟨S384x128, .f32⟩
  | .hbm, ⟨6, _⟩ => ⟨S128, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x128, .f32⟩
  | .hbm, ⟨16, _⟩ => ⟨S600000x1, .i32⟩
  | .hbm, ⟨17, _⟩ => ⟨S600000, .i32⟩
  | .hbm, ⟨18, _⟩ => ⟨S600000x1, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S600000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x6, .f32⟩
  | .local _ .vmem, ⟨5, _⟩ => ⟨S3000x6, .f32⟩
  | .local _ .vmem, ⟨6, _⟩ => ⟨S6x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S3000x128, .f32⟩
  | .local _ .vmem, ⟨12, _⟩ => ⟨S3000x128, .f32⟩
  | _, _ => ⟨S600000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S3000x6_S3000x6_0_0 : ∀ a, (![0, 0] : Fin 2 → Nat) a + S3000x6.size a ≤ S3000x6.size a
  h_S3000x6 : 0 < S3000x6.numel
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  gather_S100x128_S100000x1_S100000x128_1_0_n_n_0_1_1128_wf : GatherDims.WF S100x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  dot_S3000x6_S6x128_S3000x128_1_0_0_1_n_n_wf : DotDims.WF S3000x6 S6x128 S3000x128 [1] [0] [0] [1] [] []
  dot_S3000x128_S128x128_S3000x128_1_0_0_1_n_n_wf : DotDims.WF S3000x128 S128x128 S3000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x6.size a ≤ S600000x6.size a
  hwx0_2 : ∀ i : grid0.Coords, EltTy.bits .f32 = 32 ∨ (Rect.block (s := S600000x6) S3000x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x128.size a ≤ S6x128.size a
  hwx0_3 : ∀ i : grid0.Coords, EltTy.bits .f32 = 32 ∨ (Rect.block (s := S6x128) S6x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3000x128.size a ≤ S600000x128.size a
  hwx0_8 : ∀ i : grid0.Coords, EltTy.bits .f32 = 32 ∨ (Rect.block (s := S600000x128) S3000x128.size (cc0_transform_8 i) (hinb0_8 i)).WholeWords (EltTy.packing .f32)

variable [Facts₀]

def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S3000x6_S6x128_S3000x128_1_0_0_1_n_n : DotDims S3000x6 S6x128 S3000x128 where
  lhsContracting := [1]
  rhsContracting := [0]
  lhsNonContracting := [0]
  rhsNonContracting := [1]
  lhsBatch := []
  rhsBatch := []
  wf := dot_S3000x6_S6x128_S3000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf

abbrev win0_0 : Pipeline.Window sig grid0 :=
  Pipeline.Window.ofSpec (Memref.whole main_v17) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S3000x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S3000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S600000x6 : Shape := ⟨2, ![600000, 6]⟩
abbrev S100000 : Shape := ⟨1, ![100000]⟩
abbrev S600000x2 : Shape := ⟨2, ![600000, 2]⟩
abbrev S6x128 : Shape := ⟨2, ![6, 128]⟩
abbrev S100x128 : Shape := ⟨2, ![100, 128]⟩
abbrev S384x128 : Shape := ⟨2, ![384, 128]⟩
abbrev S128 : Shape := ⟨1, ![128]⟩
abbrev S600000x128 : Shape := ⟨2, ![600000, 128]⟩
abbrev S_ : Shape := ⟨0, ![]⟩
abbrev S100000x1 : Shape := ⟨2, ![100000, 1]⟩
abbrev S100000x128 : Shape := ⟨2, ![100000, 128]⟩
abbrev S600000x1 : Shape := ⟨2, ![600000, 1]⟩
abbrev S600000 : Shape := ⟨1, ![600000]⟩
abbrev S600000x384 : Shape := ⟨2, ![600000, 384]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S600000x6, .f32⟩
  | .hbm, ⟨1, _⟩ => ⟨S100000, .i32⟩
  | .hbm, ⟨2, _⟩ => ⟨S600000x2, .i32⟩
  | .hbm, ⟨3, _⟩ => ⟨S6x128, .f32⟩
  | .hbm, ⟨4, _⟩ => ⟨S100x128, .f32⟩
  | .hbm, ⟨5, _⟩ => ⟨S384x128, .f32⟩
  | .hbm, ⟨6, _⟩ => ⟨S128, .f32⟩
  | .hbm, ⟨7, _⟩ => ⟨S600000x128, .f32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S100000x128, .f32⟩
  | .hbm, ⟨17, _⟩ => ⟨S600000x1, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x1, .i32⟩
  | .hbm, ⟨29, _⟩ => ⟨S600000, .i32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x384, .f32⟩
  | .hbm, ⟨40, _⟩ => ⟨S600000x128, .f32⟩
  | .hbm, ⟨41, _⟩ => ⟨S1x128, .f32⟩
  | .hbm, ⟨42, _⟩ => ⟨S600000x128, .f32⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S600000x128, .f32⟩
  | .hbm, ⟨48, _⟩ => ⟨S600000x128, .f32⟩
  | .hbm, ⟨49, _⟩ => ⟨S_, .f32⟩
  | .hbm, ⟨50, _⟩ => ⟨S600000x128, .f32⟩
  | .hbm, ⟨51, _⟩ => ⟨S600000x128, .f32⟩
  | .hbm, ⟨52, _⟩ => ⟨S600000x128, .f32⟩
  | _, _ => ⟨S600000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S600000x2_S600000x1_0_0 : S600000x2.Slices ![0, 0] S600000x1
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S600000x2_S600000x1_0_1 : S600000x2.Slices ![0, 1] S600000x1
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  dot_S600000x6_S6x128_S600000x128_1_0_0_1_n_n_wf : DotDims.WF S600000x6 S6x128 S600000x128 [1] [0] [0] [1] [] []
  gather_S100x128_S100000x1_S100000x128_1_0_n_n_0_1_1128_wf : GatherDims.WF S100x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  dot_S600000x384_S384x128_S600000x128_1_0_0_1_n_n_wf : DotDims.WF S600000x384 S384x128 S600000x128 [1] [0] [0] [1] [] []

variable [Facts₀]

def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def gather_S100x128_S100000x1_S100000x128_1_0_n_n_0_1_1128 : GatherDims S100x128 S100000x1 S100000x128 where
  offsetDims := [1]
  collapsedSliceDims := [0]
  operandBatchingDims := []
  startIndicesBatchingDims := []
  startIndexMap := [0]
  indexVectorDim := 1
  sliceSizes := ![1, 128]
  wf := gather_S100x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf

class Facts : Prop extends Facts₀ where

variable [Facts]
-- ==== Proof.LibSigmoid.lean ====
/-
  GENERAL LEMMAS: the sigmoid on the extended reals.

  A host program spells σ(z) as the quotient 1 / (1 + exp (−z)), with the constant 1.0 given by its f32 bit pattern;
  a kernel applies the one logistic operation. On the extended reals the two are the same function at every
  argument, the infinities included (σ(−∞) = 0, σ(+∞) = 1), because the logistic function is defined there as that
  quotient. Nothing here depends on a shape or a program.
-/
import Idealize.ShloMosaic.PureOps.Ideal

noncomputable section

namespace Cert.Lib.Sigmoid

open Idealize.ShloMosaic

/-- The f32 bit pattern of `1.0` denotes the real number one. -/
theorem one_f32 : Ideal.ofBits .f32 0x3F800000#32 = 1 := by
  simp [Ideal.ofBits, Ideal.ieee, -EReal.coe_mul]; norm_num

/-- The host's spelling of the sigmoid — one over one plus the exponential of the negated argument, each constant
    one the pattern of `1.0` — is the logistic function, at the infinities too. -/
theorem hostSigmoid_eq (z : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) z)))
      = Ideal.logistic z := by
  rw [one_f32]; rfl

/-- The kernel's logistic operation and the host's logistic operation are that same function. -/
theorem logistic_eq (z : EReal) :
    FloatOps.logistic (F := Ideal) (φ := .f32) z = Ideal.logistic z
      ∧ FloatOps.hostUnary (F := Ideal) (φ := .f32) .logistic z = Ideal.logistic z := ⟨rfl, rfl⟩

end Cert.Lib.Sigmoid

end
-- ==== Proof.Spec.lean ====
/-
  The function both programs compute, stated once over the whole arrays, and the two facts of arithmetic that join
  their two spellings.

  For an edge `r` and an output feature `c` — with `h0`, `h1` the embeddings of the edge's two end nodes (128
  features each), `e` the edge's 6 radial features, `we` the 6 × 128 edge projection, `wd` the 384 × 128 dense
  projection and `b` the bias —

      s(r, c)   = Σ_{k<128} h0[r,k]·wd[k,c] + Σ_{k<128} h1[r,k]·wd[128+k,c]
                  + Σ_{k<128} (Σ_{j<6} e[r,j]·we[j,k])·wd[256+k,c] + b[c],
      out(r, c) = s(r, c) · σ(s(r, c)).

  One program sums the three 128-term pieces separately and adds them; the other lays the three rows end to end into
  one row of 384 entries and sums once. A sum over 384 consecutive terms is the sum of its three thirds in any
  commutative monoid (associativity only), so the two agree on all extended reals, infinite entries included: no
  finiteness is used anywhere.
-/
import Idealize.ShloMosaic.PureOps.Ideal
import Idealize.ShloMosaic.Lib.ValueIdx
import proofs.«120001_j13005160972691_1_alg».proof.Proof.LibSigmoid

noncomputable section

namespace Cert.EdgeMessage

open Idealize.ShloMosaic Idealize.ShloMosaic.ValueIdx

/-- A sum over 384 consecutive terms is the sum of its first, second and third runs of 128 terms. -/
theorem sum_thirds {M : Type*} [AddCommMonoid M] (f : Fin 384 → M) :
    ∑ k : Fin 384, f k
      = (∑ k : Fin 128, f ⟨k.val, by omega⟩ + ∑ k : Fin 128, f ⟨128 + k.val, by omega⟩)
        + ∑ k : Fin 128, f ⟨256 + k.val, by omega⟩ := by
  have h1 : ∑ k : Fin 384, f k = ∑ k : Fin (256 + 128), f k := rfl
  have h2 : ∑ i : Fin 256, f (Fin.castAdd 128 i) = ∑ i : Fin (128 + 128), f (Fin.castAdd 128 i) := rfl
  rw [h1, Fin.sum_univ_add, h2, Fin.sum_univ_add]
  rfl

/-- The pre-activation of edge `r` at output feature `c`: the three projected pieces, then the bias. -/
def preAct (h0 h1 : FVec Ideal ⟨2, ![600000, 128]⟩ .f32) (e : FVec Ideal ⟨2, ![600000, 6]⟩ .f32)
    (we : FVec Ideal ⟨2, ![6, 128]⟩ .f32) (wd : FVec Ideal ⟨2, ![384, 128]⟩ .f32) (b : FVec Ideal ⟨1, ![128]⟩ .f32)
    (r : Fin 600000) (c : Fin 128) : EReal :=
  ((∑ k : Fin 128, h0 (ix2 r k) * wd (ix2 (⟨k.val, by omega⟩ : Fin 384) c)
      + ∑ k : Fin 128, h1 (ix2 r k) * wd (ix2 (⟨128 + k.val, by omega⟩ : Fin 384) c))
    + ∑ k : Fin 128, (∑ j : Fin 6, e (ix2 r j) * we (ix2 j k)) * wd (ix2 (⟨256 + k.val, by omega⟩ : Fin 384) c))
  + b (ix1 c)

/-- The activation: `s · σ(s)`, with σ the logistic function of the extended reals. -/
def swish (s : EReal) : EReal := s * Ideal.logistic s

/-- The whole result array: the activated pre-activation at every (edge, feature). -/
def message (h0 h1 : FVec Ideal ⟨2, ![600000, 128]⟩ .f32) (e : FVec Ideal ⟨2, ![600000, 6]⟩ .f32)
    (we : FVec Ideal ⟨2, ![6, 128]⟩ .f32) (wd : FVec Ideal ⟨2, ![384, 128]⟩ .f32) (b : FVec Ideal ⟨1, ![128]⟩ .f32) :
    FVec Ideal ⟨2, ![600000, 128]⟩ .f32 :=
  fun i => swish (preAct h0 h1 e we wd b (i 0) (i 1))

/-- The host's spelling of the activation — the argument times one over one plus the exponential of its negation —
    is `swish`. -/
theorem hostSwish_eq (s : EReal) :
    FloatOps.mulf (F := Ideal) (φ := .f32) s
      (FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) s))))
      = swish s := by
  rw [Cert.Lib.Sigmoid.hostSigmoid_eq]; rfl

end Cert.EdgeMessage

end
-- ==== Proof.RefMessage.lean ====
/-
  The reference program computes `message`.

  It lays, for every edge, the two end-node embeddings and the projected radial features end to end into one row of
  384 entries, multiplies that row into the 384 × 128 dense projection, adds the bias and applies the activation in
  its host spelling. Read at an (edge, feature) entry, the 384-term sum splits into its three runs of 128 terms, and
  the entry of the joined row in the first, second and third run is the entry of the first, second and third piece.
-/
import proofs.«120001_j13005160972691_1_alg».proof.Proof.Gen.ReferenceIdeal.Read
import proofs.«120001_j13005160972691_1_alg».proof.Proof.Spec

noncomputable section

namespace Cert.EdgeMessage.Ref

open Idealize.ShloMosaic Idealize.ShloMosaic.ValueIdx Cert.ReferenceIdeal Cert.ReferenceIdeal.Read Cert.EdgeMessage

/-- Three arrays of 128 columns joined along the columns, read at a column of the first, the second and the third
    run of 128: the same row of the first, the second and the third array. -/
theorem joined_apply {α : Type} (a b d : S600000x128.Idx → α)
    (h : Shape.Concatenates [S600000x128, S600000x128, S600000x128] S600000x384 1) (r : Fin 600000) (k : Fin 128) :
    concatenate S600000x384 1 [⟨S600000x128, a⟩, ⟨S600000x128, b⟩, ⟨S600000x128, d⟩] h (ix2 r (⟨k.val, by omega⟩ : Fin 384)) = a (ix2 r k)
    ∧ concatenate S600000x384 1 [⟨S600000x128, a⟩, ⟨S600000x128, b⟩, ⟨S600000x128, d⟩] h (ix2 r (⟨128 + k.val, by omega⟩ : Fin 384)) = b (ix2 r k)
    ∧ concatenate S600000x384 1 [⟨S600000x128, a⟩, ⟨S600000x128, b⟩, ⟨S600000x128, d⟩] h (ix2 r (⟨256 + k.val, by omega⟩ : Fin 384)) = d (ix2 r k) := by
  refine ⟨?_, ?_, ?_⟩
  · refine concatenate_apply_piece (t := S600000x384) (1 : Fin 2) [⟨S600000x128, a⟩, ⟨S600000x128, b⟩, ⟨S600000x128, d⟩] h _ 0 (by show (0 : Nat) < 3; omega) S600000x128 a rfl rfl 0 rfl (ix2 r k) ?_ (Nat.zero_add _)
    intro b' hb'
    match b' with
    | ⟨0, _⟩ => rfl
    | ⟨1, _⟩ => exact absurd rfl hb'
  · refine concatenate_apply_piece (t := S600000x384) (1 : Fin 2) [⟨S600000x128, a⟩, ⟨S600000x128, b⟩, ⟨S600000x128, d⟩] h _ 1 (by show (1 : Nat) < 3; omega) S600000x128 b rfl rfl 128 rfl (ix2 r k) ?_ rfl
    intro b' hb'
    match b' with
    | ⟨0, _⟩ => rfl
    | ⟨1, _⟩ => exact absurd rfl hb'
  · refine concatenate_apply_piece (t := S600000x384) (1 : Fin 2) [⟨S600000x128, a⟩, ⟨S600000x128, b⟩, ⟨S600000x128, d⟩] h _ 2 (by show (2 : Nat) < 3; omega) S600000x128 d rfl rfl 256 rfl (ix2 r k) ?_ rfl
    intro b' hb'
    match b' with
    | ⟨0, _⟩ => rfl
    | ⟨1, _⟩ => exact absurd rfl hb'

section
variable (x0 : (⟨S600000x6, .f32⟩ : BufTy).Contents (Elt Ideal)) (x1 : (⟨S100000, .i32⟩ : BufTy).Contents (Elt Ideal))
  (x2 : (⟨S600000x2, .i32⟩ : BufTy).Contents (Elt Ideal)) (x3 : (⟨S6x128, .f32⟩ : BufTy).Contents (Elt Ideal))
  (x4 : (⟨S100x128, .f32⟩ : BufTy).Contents (Elt Ideal)) (x5 : (⟨S384x128, .f32⟩ : BufTy).Contents (Elt Ideal))
  (x6 : (⟨S128, .f32⟩ : BufTy).Contents (Elt Ideal))

/-- The reference's sum before the activation, at edge `r` and feature `c`, is the pre-activation of the two
    gathered node-embedding arrays, the radial features and the parameters. -/
theorem preAct_eq (r : Fin 600000) (c : Fin 128) :
    val_main_v30 (F := Ideal) x0 x1 x2 x3 x4 x5 x6 (ix2 r c)
      = preAct (val_main_v16 (F := Ideal) x1 x2 x4) (val_main_v25 (F := Ideal) x1 x2 x4) x0 x3 x5 x6 r c := by
  have el : ∀ k : Fin 384, lidx_main_v27 (ix2 r c) k = ix2 r k := fun k =>
    funext fun a => Fin.ext (by match a with | ⟨0, _⟩ => rfl | ⟨1, _⟩ => rfl)
  have er : ∀ k : Fin 384, ridx_main_v27 (ix2 r c) k = ix2 k c := fun k =>
    funext fun a => Fin.ext (by match a with | ⟨0, _⟩ => rfl | ⟨1, _⟩ => rfl)
  have eb : idx_main_v28 (idx_main_v29 (ix2 r c)) = ix1 c :=
    funext fun a => Fin.ext (by match a with | ⟨0, _⟩ => rfl)
  rw [val_main_v30_apply, val_main_v27_apply, val_main_v29_apply, val_main_v28_apply, eb, sum_thirds]
  simp only [el, er]
  unfold preAct val_main_v26
  obtain J := joined_apply (val_main_v16 (F := Ideal) x1 x2 x4) (val_main_v25 (F := Ideal) x1 x2 x4) (val_main_v0 (F := Ideal) x0 x3)
    Facts₀.concatenates_S600000x128_S600000x128_S600000x128_S600000x384_d1 r
  have e0 : ∀ k : Fin 128, ∀ j : Fin 6, lidx_main_v0 (ix2 r k) j = ix2 r j := fun k j =>
    funext fun a => Fin.ext (by match a with | ⟨0, _⟩ => rfl | ⟨1, _⟩ => rfl)
  have e1 : ∀ k : Fin 128, ∀ j : Fin 6, ridx_main_v0 (ix2 r k) j = ix2 j k := fun k j =>
    funext fun a => Fin.ext (by match a with | ⟨0, _⟩ => rfl | ⟨1, _⟩ => rfl)
  show (_ + _ + _) + _ = (_ + _ + _) + _
  refine congrArg₂ (· + ·) (congrArg₂ (· + ·) (congrArg₂ (· + ·) ?_ ?_) ?_) rfl
  · exact Finset.sum_congr rfl fun k _ => by rw [(J k).1]
  · exact Finset.sum_congr rfl fun k _ => by rw [(J k).2.1]
  · refine Finset.sum_congr rfl fun k _ => ?_
    rw [(J k).2.2, val_main_v0_apply]
    simp only [e0, e1]

/-- The reference's result array is `message` of the two gathered node-embedding arrays, the radial features and
    the parameters. -/
theorem result_eq :
    val_main_v31 (F := Ideal) x0 x1 x2 x3 x4 x5 x6
      = message (val_main_v16 (F := Ideal) x1 x2 x4) (val_main_v25 (F := Ideal) x1 x2 x4) x0 x3 x5 x6 := by
  funext i
  obtain ⟨r, c, rfl⟩ : ∃ (r : Fin 600000) (c : Fin 128), i = ix2 r c := ⟨i 0, i 1, eq_ix2 i⟩
  rw [val_main_v31_apply, val_main_call0_v5_apply, val_main_call0_v4_apply, val_main_call0_cst_0_apply,
    val_main_call0_v3_apply, val_main_call0_v2_apply, val_main_call0_cst_apply, val_main_call0_v1_apply,
    val_main_call0_v0_apply, preAct_eq]
  exact hostSwish_eq _

end

end Cert.EdgeMessage.Ref

end
-- ==== Proof.BodyValue.lean ====
/-
  What the kernel's body stores, entry by entry.

  At a grid point the body holds a block of 3000 edges: the two end-node embedding blocks `a0`, `a1` (3000 × 128),
  the radial-feature block `e` (3000 × 6), and the whole parameters — the edge projection `we` (6 × 128), the three
  128 × 128 slabs `w0`, `w1`, `w2` of the dense projection and the bias row `b` (1 × 128). It forms the three
  matrix products into zero accumulators, adds them, adds the bias row to every edge, and multiplies the sum by its
  logistic. The narrowing of the operands before each product is the identity on the extended reals. At edge `p` of the
  block and feature `q` the stored value is therefore

      swish (Σ_k a0[p,k]·w0[k,q] + Σ_k a1[p,k]·w1[k,q] + Σ_k (Σ_j e[p,j]·we[j,k])·w2[k,q] + b[0,q]).
-/
import proofs.«120001_j13005160972691_1_alg».proof.Proof.Gen.KernelIdeal.Skeleton
import proofs.«120001_j13005160972691_1_alg».proof.Proof.Spec
import Idealize.ShloMosaic.Lib.Pipeline.Value
import Idealize.ShloMosaic.Lib.ValueIdx
import Idealize.ShloMosaic.PureOps.Ideal.Laws

noncomputable section

namespace Cert.EdgeMessage.Body

open Idealize.ShloMosaic Idealize.ShloMosaic.ValueIdx Cert.KernelIdeal Cert.KernelIdeal.Gen Cert.EdgeMessage

/-! The operand positions of the two matrix products: row and inner position on the left, inner position and column on the right. -/

theorem slab_lhs_row (i : S3000x128.Idx) (c : dot_S3000x128_S128x128_S3000x128_1_0_0_1_n_n.contr.Idx) : (dot_S3000x128_S128x128_S3000x128_1_0_0_1_n_n.lhsIdx i c 0).val = (i 0).val := by
  unfold DotDims.lhsIdx
  rw [dif_neg (show ¬(0 : Fin S3000x128.rank) ∈ dot_S3000x128_S128x128_S3000x128_1_0_0_1_n_n.lhsBatch by decide), dif_pos (show (0 : Fin S3000x128.rank) ∈ dot_S3000x128_S128x128_S3000x128_1_0_0_1_n_n.lhsNonContracting by decide)]
  rfl
theorem slab_lhs_inner (i : S3000x128.Idx) (c : dot_S3000x128_S128x128_S3000x128_1_0_0_1_n_n.contr.Idx) : (dot_S3000x128_S128x128_S3000x128_1_0_0_1_n_n.lhsIdx i c 1).val = (c ⟨0, by decide⟩).val :=
  dot_S3000x128_S128x128_S3000x128_1_0_0_1_n_n.lhsIdx_val_of_single rfl i c
theorem slab_rhs_inner (i : S3000x128.Idx) (c : dot_S3000x128_S128x128_S3000x128_1_0_0_1_n_n.contr.Idx) : (dot_S3000x128_S128x128_S3000x128_1_0_0_1_n_n.rhsIdx i c 0).val = (c ⟨0, by decide⟩).val :=
  dot_S3000x128_S128x128_S3000x128_1_0_0_1_n_n.rhsIdx_val_of_single rfl i c
theorem slab_rhs_col (i : S3000x128.Idx) (c : dot_S3000x128_S128x128_S3000x128_1_0_0_1_n_n.contr.Idx) : (dot_S3000x128_S128x128_S3000x128_1_0_0_1_n_n.rhsIdx i c 1).val = (i 1).val := by
  unfold DotDims.rhsIdx
  rw [dif_neg (show ¬(1 : Fin S128x128.rank) ∈ dot_S3000x128_S128x128_S3000x128_1_0_0_1_n_n.rhsBatch by decide), dif_pos (show (1 : Fin S128x128.rank) ∈ dot_S3000x128_S128x128_S3000x128_1_0_0_1_n_n.rhsNonContracting by decide)]
  rfl

theorem edge_lhs_row (i : S3000x128.Idx) (c : dot_S3000x6_S6x128_S3000x128_1_0_0_1_n_n.contr.Idx) : (dot_S3000x6_S6x128_S3000x128_1_0_0_1_n_n.lhsIdx i c 0).val = (i 0).val := by
  unfold DotDims.lhsIdx
  rw [dif_neg (show ¬(0 : Fin S3000x6.rank) ∈ dot_S3000x6_S6x128_S3000x128_1_0_0_1_n_n.lhsBatch by decide), dif_pos (show (0 : Fin S3000x6.rank) ∈ dot_S3000x6_S6x128_S3000x128_1_0_0_1_n_n.lhsNonContracting by decide)]
  rfl
theorem edge_lhs_inner (i : S3000x128.Idx) (c : dot_S3000x6_S6x128_S3000x128_1_0_0_1_n_n.contr.Idx) : (dot_S3000x6_S6x128_S3000x128_1_0_0_1_n_n.lhsIdx i c 1).val = (c ⟨0, by decide⟩).val :=
  dot_S3000x6_S6x128_S3000x128_1_0_0_1_n_n.lhsIdx_val_of_single rfl i c
theorem edge_rhs_inner (i : S3000x128.Idx) (c : dot_S3000x6_S6x128_S3000x128_1_0_0_1_n_n.contr.Idx) : (dot_S3000x6_S6x128_S3000x128_1_0_0_1_n_n.rhsIdx i c 0).val = (c ⟨0, by decide⟩).val :=
  dot_S3000x6_S6x128_S3000x128_1_0_0_1_n_n.rhsIdx_val_of_single rfl i c
theorem edge_rhs_col (i : S3000x128.Idx) (c : dot_S3000x6_S6x128_S3000x128_1_0_0_1_n_n.contr.Idx) : (dot_S3000x6_S6x128_S3000x128_1_0_0_1_n_n.rhsIdx i c 1).val = (i 1).val := by
  unfold DotDims.rhsIdx
  rw [dif_neg (show ¬(1 : Fin S6x128.rank) ∈ dot_S3000x6_S6x128_S3000x128_1_0_0_1_n_n.rhsBatch by decide), dif_pos (show (1 : Fin S6x128.rank) ∈ dot_S3000x6_S6x128_S3000x128_1_0_0_1_n_n.rhsNonContracting by decide)]
  rfl

/-- A 3000 × 128 block times a 128 × 128 matrix, accumulated into zeros, at (p, q): the sum over the 128 inner
    positions of the products. -/
theorem rowsTimesSlab_apply (l : FVec Ideal S3000x128 .bf16) (w : FVec Ideal S128x128 .bf16) (p : Fin 3000) (q : Fin 128) :
    matmul (F := Ideal) dot_S3000x128_S128x128_S3000x128_1_0_0_1_n_n none l w (constant (F := Ideal) S3000x128 .f32 0x00000000#32) (ix2 p q)
      = ∑ k : Fin 128, l (ix2 p k) * w (ix2 k q) := by
  simp only [matmul]
  rw [Ideal.matmul_constant_zero_apply, ← Equiv.sum_comp (contrEquiv1 dot_S3000x128_S128x128_S3000x128_1_0_0_1_n_n 128 rfl rfl).symm]
  refine Finset.sum_congr rfl fun k _ => ?_
  have hk := contrEquiv1_symm_val dot_S3000x128_S128x128_S3000x128_1_0_0_1_n_n 128 rfl rfl k
  have el : dot_S3000x128_S128x128_S3000x128_1_0_0_1_n_n.lhsIdx (ix2 p q) ((contrEquiv1 dot_S3000x128_S128x128_S3000x128_1_0_0_1_n_n 128 rfl rfl).symm k) = ix2 p k :=
    funext fun a => Fin.ext (by
      match a with
      | ⟨0, _⟩ => exact slab_lhs_row _ _
      | ⟨1, _⟩ => exact (slab_lhs_inner _ _).trans hk)
  have er : dot_S3000x128_S128x128_S3000x128_1_0_0_1_n_n.rhsIdx (ix2 p q) ((contrEquiv1 dot_S3000x128_S128x128_S3000x128_1_0_0_1_n_n 128 rfl rfl).symm k) = ix2 k q :=
    funext fun a => Fin.ext (by
      match a with
      | ⟨0, _⟩ => exact (slab_rhs_inner _ _).trans hk
      | ⟨1, _⟩ => exact slab_rhs_col _ _)
  rw [el, er]

/-- A 3000 × 6 block times a 6 × 128 matrix, accumulated into zeros, at (p, q): the sum over the 6 inner positions. -/
theorem rowsTimesEdge_apply (l : FVec Ideal S3000x6 .bf16) (w : FVec Ideal S6x128 .bf16) (p : Fin 3000) (q : Fin 128) :
    matmul (F := Ideal) dot_S3000x6_S6x128_S3000x128_1_0_0_1_n_n none l w (constant (F := Ideal) S3000x128 .f32 0x00000000#32) (ix2 p q)
      = ∑ j : Fin 6, l (ix2 p j) * w (ix2 j q) := by
  simp only [matmul]
  rw [Ideal.matmul_constant_zero_apply, ← Equiv.sum_comp (contrEquiv1 dot_S3000x6_S6x128_S3000x128_1_0_0_1_n_n 6 rfl rfl).symm]
  refine Finset.sum_congr rfl fun k _ => ?_
  have hk := contrEquiv1_symm_val dot_S3000x6_S6x128_S3000x128_1_0_0_1_n_n 6 rfl rfl k
  have el : dot_S3000x6_S6x128_S3000x128_1_0_0_1_n_n.lhsIdx (ix2 p q) ((contrEquiv1 dot_S3000x6_S6x128_S3000x128_1_0_0_1_n_n 6 rfl rfl).symm k) = ix2 p k :=
    funext fun a => Fin.ext (by
      match a with
      | ⟨0, _⟩ => exact edge_lhs_row _ _
      | ⟨1, _⟩ => exact (edge_lhs_inner _ _).trans hk)
  have er : dot_S3000x6_S6x128_S3000x128_1_0_0_1_n_n.rhsIdx (ix2 p q) ((contrEquiv1 dot_S3000x6_S6x128_S3000x128_1_0_0_1_n_n 6 rfl rfl).symm k) = ix2 k q :=
    funext fun a => Fin.ext (by
      match a with
      | ⟨0, _⟩ => exact (edge_rhs_inner _ _).trans hk
      | ⟨1, _⟩ => exact edge_rhs_col _ _)
  rw [el, er]

/-- A one-row array repeated down the 3000 edges of a block: at (p, q) it is the row's entry q. -/
theorem biasRows_apply {α : Type} (b : S1x128.Idx → α) (h : S1x128.Broadcasts S3000x128) (p : Fin 3000) (q : Fin 128) :
    broadcastTo S3000x128 b h (ix2 p q) = b (ix2 (0 : Fin 1) q) :=
  broadcastTo_apply b h (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The logistic of a block, entry by entry. -/
theorem logistic_apply {s : Shape} (x : FVec Ideal s .f32) (i : s.Idx) : logistic x i = Ideal.logistic (x i) := rfl

/-- The value the body stores at edge `p` of its block and feature `q`. -/
theorem stored_apply (e : Vec Ideal S3000x6 .f32) (we : Vec Ideal S6x128 .f32) (a0 a1 : Vec Ideal S3000x128 .f32)
    (w0 w1 w2 : Vec Ideal S128x128 .f32) (b : Vec Ideal S1x128 .f32) (p : Fin 3000) (q : Fin 128) :
    k0_pay1 (F := Ideal) e we a0 a1 w0 w1 w2 b (ix2 p q)
      = swish (((∑ k : Fin 128, a0 (ix2 p k) * w0 (ix2 k q) + ∑ k : Fin 128, a1 (ix2 p k) * w1 (ix2 k q))
          + ∑ k : Fin 128, (∑ j : Fin 6, e (ix2 p j) * we (ix2 j k)) * w2 (ix2 k q)) + b (ix2 (0 : Fin 1) q)) := by
  unfold k0_pay1
  simp only [shapeCast_self, mulf_apply, addf_apply, logistic_apply, rowsTimesSlab_apply, rowsTimesEdge_apply,
    truncf_apply, biasRows_apply]
  rfl

/-- When the blocks the body holds are the rows of edge `r` of the whole arrays and the whole parameters — the two
    embedding rows, the radial-feature row, the edge projection, the three slabs as the first, second and third run of
    128 rows of the dense projection, the bias row as the bias — the value stored at (p, q) is the activated
    pre-activation of edge `r` at feature `q`. -/
theorem stored_eq_swish_preAct
    (H0 H1 : FVec Ideal ⟨2, ![600000, 128]⟩ .f32) (x0 : FVec Ideal ⟨2, ![600000, 6]⟩ .f32) (x3 : FVec Ideal ⟨2, ![6, 128]⟩ .f32)
    (x5 : FVec Ideal ⟨2, ![384, 128]⟩ .f32) (x6 : FVec Ideal ⟨1, ![128]⟩ .f32)
    (e : Vec Ideal S3000x6 .f32) (we : Vec Ideal S6x128 .f32) (a0 a1 : Vec Ideal S3000x128 .f32)
    (w0 w1 w2 : Vec Ideal S128x128 .f32) (b : Vec Ideal S1x128 .f32) (r : Fin 600000) (p : Fin 3000) (q : Fin 128)
    (h0 : ∀ k : Fin 128, a0 (ix2 p k) = H0 (ix2 r k)) (h1 : ∀ k : Fin 128, a1 (ix2 p k) = H1 (ix2 r k))
    (he : ∀ j : Fin 6, e (ix2 p j) = x0 (ix2 r j)) (hwe : ∀ (j : Fin 6) (k : Fin 128), we (ix2 j k) = x3 (ix2 j k))
    (hw0 : ∀ k : Fin 128, w0 (ix2 k q) = x5 (ix2 (⟨k.val, by omega⟩ : Fin 384) q))
    (hw1 : ∀ k : Fin 128, w1 (ix2 k q) = x5 (ix2 (⟨128 + k.val, by omega⟩ : Fin 384) q))
    (hw2 : ∀ k : Fin 128, w2 (ix2 k q) = x5 (ix2 (⟨256 + k.val, by omega⟩ : Fin 384) q))
    (hb : b (ix2 (0 : Fin 1) q) = x6 (ix1 q)) :
    k0_pay1 (F := Ideal) e we a0 a1 w0 w1 w2 b (ix2 p q) = swish (preAct H0 H1 x0 x3 x5 x6 r q) := by
  rw [stored_apply]
  unfold preAct
  simp only [h0, h1, he, hwe, hw0, hw1, hw2, hb]

end Cert.EdgeMessage.Body

end
-- ==== Proof.EndRows.lean ====
/-
  The embeddings of an edge's two end nodes, as both programs compute them before any arithmetic.

  A node's embedding is the row of the 100-row table that its type index names, and an edge's end node is named by a
  column of the neighbour list; an index below zero counts from the end (the table's or the node list's length is
  added to it). Both programs apply exactly these host operations to the integer arguments and to the table, so the
  two gathered arrays are carried here as one function of those arguments and are never opened: which row an index
  selects plays no part in the comparison.
-/
import proofs.«120001_j13005160972691_1_alg».proof.Proof.Gen.KernelIdeal

noncomputable section

namespace Cert.EdgeMessage.Ends

open Idealize.ShloMosaic Cert.KernelIdeal

/-- A node's type index, counted from the end of the 100-row table when it is negative. -/
def typeIndex (z : IVec S100000 32) : IVec S100000 32 :=
  select (cmpi .slt z (broadcastInDim S100000 ![] Facts₀.bcast_S_S100000 (constantI S_ 32 0#32)))
    (addi z (broadcastInDim S100000 ![] Facts₀.bcast_S_S100000 (constantI S_ 32 100#32))) z

/-- Every node's embedding: its type's row of the table. -/
def nodeRows {α : Type} (z : IVec S100000 32) (tbl : S100x128.Idx → α) : S100000x128.Idx → α :=
  Host.gather gather_S100x128_S100000x1_S100000x128_1_0_n_n_0_1_1128 tbl
    (broadcastInDim S100000x1 ![0] Facts₀.bcast_S100000_S100000x1_0 (typeIndex z))

/-- One column of the neighbour list as node indices, counted from the end of the 100000 nodes when negative. -/
def endIndex (col : IVec S600000x1 32) : IVec S600000 32 :=
  select (cmpi .slt (shapeCast S600000 col Facts₀.shapeCasts_S600000x1_S600000) (broadcastInDim S600000 ![] Facts₀.bcast_S_S600000 (constantI S_ 32 0#32)))
    (addi (shapeCast S600000 col Facts₀.shapeCasts_S600000x1_S600000) (broadcastInDim S600000 ![] Facts₀.bcast_S_S600000 (constantI S_ 32 100000#32)))
    (shapeCast S600000 col Facts₀.shapeCasts_S600000x1_S600000)

/-- Every edge's end-node embedding, for the end a column of the neighbour list names. -/
def endRows {α : Type} (col : IVec S600000x1 32) (z : IVec S100000 32) (tbl : S100x128.Idx → α) : S600000x128.Idx → α :=
  Host.gather gather_S100000x128_S600000x1_S600000x128_1_0_n_n_0_1_1128 (nodeRows z tbl)
    (broadcastInDim S600000x1 ![0] Facts₀.bcast_S600000_S600000x1_0 (endIndex col))

/-- The first and the second column of the neighbour list. -/
def firstEnd (nbr : IVec S600000x2 32) : IVec S600000x1 32 :=
  extractStridedSlice S600000x1 ![0, 0] nbr Facts₀.slices_S600000x2_S600000x1_0_0
def secondEnd (nbr : IVec S600000x2 32) : IVec S600000x1 32 :=
  extractStridedSlice S600000x1 ![0, 1] nbr Facts₀.slices_S600000x2_S600000x1_0_1

end Cert.EdgeMessage.Ends

end
-- ==== Proof.WholeArray.lean ====
/-
  From the blocks to the whole result array.

  The grid has 200 points; point `t` holds edges 3000·t … 3000·t + 2999. Its two end-node embedding blocks and its
  radial-feature block are those rows of the whole arrays, the parameters come whole at every point (the three slabs
  are rows 0–127, 128–255 and 256–383 of the dense projection, cut out by the host before the launch; the bias row is
  the bias vector as one row), and the block it writes back is those rows of the result. So what point `t` writes is
  block `t` of `message` of the whole arrays, the 200 blocks cover every edge, and the result array after the run
  is `message`.
-/
import proofs.«120001_j13005160972691_1_alg».proof.Proof.Gen.KernelIdeal.Value
import proofs.«120001_j13005160972691_1_alg».proof.Proof.BodyValue
import proofs.«120001_j13005160972691_1_alg».proof.Proof.EndRows
import Idealize.ShloMosaic.Lib.StableHlo.Run

noncomputable section

namespace Cert.EdgeMessage.Array

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.EdgeMessage Cert.EdgeMessage.Ends Cert.EdgeMessage.Body

variable (m : (ℓ : Loc nD τ sig) → Buf (Elt Ideal) ℓ) (ρ : Dev nD → PrngReg)

/-- The result on core `c`: `message` of the two gathered end-node embedding arrays, the radial features and the
    parameters, all as launched. -/
def result (c : Dev nD) : S600000x128.Idx → EReal :=
  message (endRows (firstEnd (m ((c : Thread nD τ).loc main_arg2))) (m ((c : Thread nD τ).loc main_arg1)) (m ((c : Thread nD τ).loc main_arg4))) (endRows (secondEnd (m ((c : Thread nD τ).loc main_arg2))) (m ((c : Thread nD τ).loc main_arg1)) (m ((c : Thread nD τ).loc main_arg4))) (m ((c : Thread nD τ).loc main_arg0)) (m ((c : Thread nD τ).loc main_arg3)) (m ((c : Thread nD τ).loc main_arg5)) (m ((c : Thread nD τ).loc main_arg6))

/-! ## What the region finds: the arrays the host operations before the launch leave -/

set_option maxHeartbeats 2000000 in
theorem entry_first (c : Dev nD) : (V m c main_v17 : S600000x128.Idx → EReal) = (endRows (firstEnd (m ((c : Thread nD τ).loc main_arg2))) (m ((c : Thread nD τ).loc main_arg1)) (m ((c : Thread nD τ).loc main_arg4))) := by
  dsimp only [Gen.V, Gen.hostOps0]
  after_results
  rfl

set_option maxHeartbeats 2000000 in
theorem entry_second (c : Dev nD) : (V m c main_v24 : S600000x128.Idx → EReal) = (endRows (secondEnd (m ((c : Thread nD τ).loc main_arg2))) (m ((c : Thread nD τ).loc main_arg1)) (m ((c : Thread nD τ).loc main_arg4))) := by
  dsimp only [Gen.V, Gen.hostOps0]
  after_results
  rfl

theorem entry_slab0 (c : Dev nD) : (V m c main_v25 : S128x128.Idx → EReal)
    = extractStridedSlice S128x128 ![0, 0] (m ((c : Thread nD τ).loc main_arg5)) Facts₀.slices_S384x128_S128x128_0_0 := by
  dsimp only [Gen.V, Gen.hostOps0]
  after_results

theorem entry_slab1 (c : Dev nD) : (V m c main_v26 : S128x128.Idx → EReal)
    = extractStridedSlice S128x128 ![128, 0] (m ((c : Thread nD τ).loc main_arg5)) Facts₀.slices_S384x128_S128x128_128_0 := by
  dsimp only [Gen.V, Gen.hostOps0]
  after_results

theorem entry_slab2 (c : Dev nD) : (V m c main_v27 : S128x128.Idx → EReal)
    = extractStridedSlice S128x128 ![256, 0] (m ((c : Thread nD τ).loc main_arg5)) Facts₀.slices_S384x128_S128x128_256_0 := by
  dsimp only [Gen.V, Gen.hostOps0]
  after_results

theorem entry_bias (c : Dev nD) : (V m c main_v28 : S1x128.Idx → EReal)
    = shapeCast S1x128 (m ((c : Thread nD τ).loc main_arg6)) Facts₀.shapeCasts_S128_S1x128 := by
  dsimp only [Gen.V, Gen.hostOps0]
  after_results
  rfl

/-! ## The index maps, decided over the 200 points -/

theorem zero_offsets : (![0, 0] : Fin 2 → Nat) = fun _ => 0 := funext fun a => by fin_cases a <;> rfl

/-- The three edge-blocked inputs and the output sit at block row `t`, column block 0; the five parameters at block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem points : cfg0.N = 200 := N_0

/-- Edge `p` of point `t`'s block is edge 3000·t + p of the whole arrays. -/
def edgeOf (t : Fin cfg0.N) (p : Fin 3000) : Fin 600000 :=
  ⟨t.val * 3000 + p.val, by have := t.isLt; have := points; have := p.isLt; omega⟩

/-! ## The blocks at a point, read at an entry -/

theorem read_first (c : Dev nD) (t : Fin cfg0.N) (p : Fin 3000) (k : Fin 128) :
    (iblk m c 0 t : S3000x128.Idx → EReal) (ix2 p k) = (endRows (firstEnd (m ((c : Thread nD τ).loc main_arg2))) (m ((c : Thread nD τ).loc main_arg1)) (m ((c : Thread nD τ).loc main_arg4))) (ix2 (edgeOf t p) k) := by
  show V m c main_v17 (((cfg0.win 0).blk t).view.emb (ix2 p k)) = _
  rw [entry_first]
  refine congrArg (endRows (firstEnd (m ((c : Thread nD τ).loc main_arg2))) (m ((c : Thread nD τ).loc main_arg1)) (m ((c : Thread nD τ).loc main_arg4))) ?_
  funext a; apply Fin.ext
  obtain ⟨⟨e0, e1⟩, -⟩ := block_index t
  match a with
  | ⟨0, _⟩ => show win0_0.index t (0 : Fin 2) * 3000 + 1 * p.val = t.val * 3000 + p.val; rw [e0]; omega
  | ⟨1, _⟩ => show win0_0.index t (1 : Fin 2) * 128 + 1 * k.val = k.val; rw [e1]; omega

theorem read_second (c : Dev nD) (t : Fin cfg0.N) (p : Fin 3000) (k : Fin 128) :
    (iblk m c 1 t : S3000x128.Idx → EReal) (ix2 p k) = (endRows (secondEnd (m ((c : Thread nD τ).loc main_arg2))) (m ((c : Thread nD τ).loc main_arg1)) (m ((c : Thread nD τ).loc main_arg4))) (ix2 (edgeOf t p) k) := by
  show V m c main_v24 (((cfg0.win 1).blk t).view.emb (ix2 p k)) = _
  rw [entry_second]
  refine congrArg (endRows (secondEnd (m ((c : Thread nD τ).loc main_arg2))) (m ((c : Thread nD τ).loc main_arg1)) (m ((c : Thread nD τ).loc main_arg4))) ?_
  funext a; apply Fin.ext
  obtain ⟨-, ⟨e0, e1⟩, -⟩ := block_index t
  match a with
  | ⟨0, _⟩ => show win0_1.index t (0 : Fin 2) * 3000 + 1 * p.val = t.val * 3000 + p.val; rw [e0]; omega
  | ⟨1, _⟩ => show win0_1.index t (1 : Fin 2) * 128 + 1 * k.val = k.val; rw [e1]; omega

theorem read_radial (c : Dev nD) (t : Fin cfg0.N) (p : Fin 3000) (j : Fin 6) :
    (iblk m c 2 t : S3000x6.Idx → EReal) (ix2 p j) = (m ((c : Thread nD τ).loc main_arg0)) (ix2 (edgeOf t p) j) := by
  show V m c main_arg0 (((cfg0.win 2).blk t).view.emb (ix2 p j)) = _
  rw [V_main_arg0]
  refine congrArg (m ((c : Thread nD τ).loc main_arg0)) ?_
  funext a; apply Fin.ext
  obtain ⟨-, -, ⟨e0, e1⟩, -⟩ := block_index t
  match a with
  | ⟨0, _⟩ => show win0_2.index t (0 : Fin 2) * 3000 + 1 * p.val = t.val * 3000 + p.val; rw [e0]; omega
  | ⟨1, _⟩ => show win0_2.index t (1 : Fin 2) * 6 + 1 * j.val = j.val; rw [e1]; omega

theorem read_edgeProj (c : Dev nD) (t : Fin cfg0.N) (j : Fin 6) (k : Fin 128) :
    (iblk m c 3 t : S6x128.Idx → EReal) (ix2 j k) = (m ((c : Thread nD τ).loc main_arg3)) (ix2 j k) := by
  show V m c main_arg3 (((cfg0.win 3).blk t).view.emb (ix2 j k)) = _
  rw [V_main_arg3]
  refine congrArg (m ((c : Thread nD τ).loc main_arg3)) ?_
  funext a; apply Fin.ext
  obtain ⟨-, -, -, ⟨e0, e1⟩, -⟩ := block_index t
  match a with
  | ⟨0, _⟩ => show win0_3.index t (0 : Fin 2) * 6 + 1 * j.val = j.val; rw [e0]; omega
  | ⟨1, _⟩ => show win0_3.index t (1 : Fin 2) * 128 + 1 * k.val = k.val; rw [e1]; omega

theorem read_slab0 (c : Dev nD) (t : Fin cfg0.N) (k q : Fin 128) :
    (iblk m c 4 t : S128x128.Idx → EReal) (ix2 k q) = (m ((c : Thread nD τ).loc main_arg5)) (ix2 (⟨k.val, by omega⟩ : Fin 384) q) := by
  show V m c main_v25 (((cfg0.win 4).blk t).view.emb (ix2 k q)) = _
  rw [entry_slab0]
  obtain ⟨-, -, -, -, ⟨e0, e1⟩, -⟩ := block_index t
  refine extractStridedSlice_apply _ _ _ _ _ fun a => ?_
  match a with
  | ⟨0, _⟩ => show k.val = 0 + (win0_4.index t (0 : Fin 2) * 128 + 1 * k.val); rw [e0]; omega
  | ⟨1, _⟩ => show q.val = 0 + (win0_4.index t (1 : Fin 2) * 128 + 1 * q.val); rw [e1]; omega

theorem read_slab1 (c : Dev nD) (t : Fin cfg0.N) (k q : Fin 128) :
    (iblk m c 5 t : S128x128.Idx → EReal) (ix2 k q) = (m ((c : Thread nD τ).loc main_arg5)) (ix2 (⟨128 + k.val, by omega⟩ : Fin 384) q) := by
  show V m c main_v26 (((cfg0.win 5).blk t).view.emb (ix2 k q)) = _
  rw [entry_slab1]
  obtain ⟨-, -, -, -, -, ⟨e0, e1⟩, -⟩ := block_index t
  refine extractStridedSlice_apply _ _ _ _ _ fun a => ?_
  match a with
  | ⟨0, _⟩ => show 128 + k.val = 128 + (win0_5.index t (0 : Fin 2) * 128 + 1 * k.val); rw [e0]; omega
  | ⟨1, _⟩ => show q.val = 0 + (win0_5.index t (1 : Fin 2) * 128 + 1 * q.val); rw [e1]; omega

theorem read_slab2 (c : Dev nD) (t : Fin cfg0.N) (k q : Fin 128) :
    (iblk m c 6 t : S128x128.Idx → EReal) (ix2 k q) = (m ((c : Thread nD τ).loc main_arg5)) (ix2 (⟨256 + k.val, by omega⟩ : Fin 384) q) := by
  show V m c main_v27 (((cfg0.win 6).blk t).view.emb (ix2 k q)) = _
  rw [entry_slab2]
  obtain ⟨-, -, -, -, -, -, ⟨e0, e1⟩, -⟩ := block_index t
  refine extractStridedSlice_apply _ _ _ _ _ fun a => ?_
  match a with
  | ⟨0, _⟩ => show 256 + k.val = 256 + (win0_6.index t (0 : Fin 2) * 128 + 1 * k.val); rw [e0]; omega
  | ⟨1, _⟩ => show q.val = 0 + (win0_6.index t (1 : Fin 2) * 128 + 1 * q.val); rw [e1]; omega

theorem read_bias (c : Dev nD) (t : Fin cfg0.N) (q : Fin 128) :
    (iblk m c 7 t : S1x128.Idx → EReal) (ix2 (0 : Fin 1) q) = (m ((c : Thread nD τ).loc main_arg6)) (ix1 q) := by
  show V m c main_v28 (((cfg0.win 7).blk t).view.emb (ix2 (0 : Fin 1) q)) = _
  rw [entry_bias]
  obtain ⟨-, -, -, -, -, -, -, ⟨e0, e1⟩, -⟩ := block_index t
  refine shapeCast_apply (s := S128) (t := S1x128) (m ((c : Thread nD τ).loc main_arg6)) Facts₀.shapeCasts_S128_S1x128 _ (ix1 q) ?_
  refine (Shape.rowMajor_val_one (d := ![128]) (ix1 q)).trans (Eq.trans ?_ (Shape.rowMajor_val_two (d := ![1, 128]) _).symm)
  show q.val = (win0_7.index t (0 : Fin 2) * 1 + 1 * 0) * 128 + (win0_7.index t (1 : Fin 2) * 128 + 1 * q.val)
  rw [e0, e1]; omega

/-! ## What a point writes back, the cover, and the array after the run -/

/-- Point `t` writes back block `t` of `result`. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero zero_offsets]
  simp only [View.ld_unit_zero (S := S3000x128) zero_offsets, View.ld_unit_zero (S := S3000x6) zero_offsets,
    View.ld_unit_zero (S := S6x128) zero_offsets, View.ld_unit_zero (S := S128x128) zero_offsets,
    View.ld_unit_zero (S := S1x128) zero_offsets]
  funext y
  obtain ⟨p, q, rfl⟩ : ∃ (p : Fin 3000) (q : Fin 128), y = ix2 p q := ⟨y 0, y 1, eq_ix2 y⟩
  show k0_pay1 (F := Ideal) (iblk m c 2 t) (iblk m c 3 t) (iblk m c 0 t) (iblk m c 1 t) (iblk m c 4 t) (iblk m c 5 t)
      (iblk m c 6 t) (iblk m c 7 t) (ix2 p q) = result m c (((cfg0.win 8).blk t).view.emb (ix2 p q))
  have hout : ((cfg0.win 8).blk t).view.emb (ix2 p q) = ix2 (edgeOf t p) q := by
    funext a; apply Fin.ext
    obtain ⟨-, -, -, -, -, -, -, -, ⟨e0, e1⟩⟩ := block_index t
    match a with
    | ⟨0, _⟩ => show win0_8.index t (0 : Fin 2) * 3000 + 1 * p.val = t.val * 3000 + p.val; rw [e0]; omega
    | ⟨1, _⟩ => show win0_8.index t (1 : Fin 2) * 128 + 1 * q.val = q.val; rw [e1]; omega
  rw [hout]
  exact stored_eq_swish_preAct (endRows (firstEnd (m ((c : Thread nD τ).loc main_arg2))) (m ((c : Thread nD τ).loc main_arg1)) (m ((c : Thread nD τ).loc main_arg4))) (endRows (secondEnd (m ((c : Thread nD τ).loc main_arg2))) (m ((c : Thread nD τ).loc main_arg1)) (m ((c : Thread nD τ).loc main_arg4))) (m ((c : Thread nD τ).loc main_arg0)) (m ((c : Thread nD τ).loc main_arg3)) (m ((c : Thread nD τ).loc main_arg5)) (m ((c : Thread nD τ).loc main_arg6))
    (iblk m c 2 t) (iblk m c 3 t) (iblk m c 0 t) (iblk m c 1 t) (iblk m c 4 t) (iblk m c 5 t) (iblk m c 6 t) (iblk m c 7 t)
    (edgeOf t p) p q
    (fun k => read_first m c t p k) (fun k => read_second m c t p k) (fun j => read_radial m c t p j)
    (fun j k => read_edgeProj m c t j k) (fun k => read_slab0 m c t k q) (fun k => read_slab1 m c t k q)
    (fun k => read_slab2 m c t k q) (read_bias m c t q)

/-- An index of the result array is in point `t`'s block iff each coordinate is in the block's range on its axis. -/
theorem mem_block (t : Fin cfg0.N) (i : S600000x128.Idx) :
    i ∈ ((cfg0.win 8).blk t).view.set ↔ ∀ a : Fin 2, win0_8.index t a * S3000x128.size a ≤ (i a).val ∧ (i a).val < win0_8.index t a * S3000x128.size a + S3000x128.size a := by
  show i ∈ ((View.whole main_v29).slice (win0_8.rect t)).set ↔ _
  rw [View.set_slice_whole, Rect.mem_set_unit]
  exact Iff.rfl

/-- Every (edge, feature) lies in the block of the point that holds the edge: point ⌊edge / 3000⌋. -/
theorem covered (i : S600000x128.Idx) :
    ∃ t : Fin cfg0.N, (cfg0.win 8).flush t = true ∧ i ∈ ((cfg0.win 8).blk t).view.set := by
  have hi0 : (i 0).val < 600000 := (i 0).isLt
  have hi1 : (i 1).val < 128 := (i 1).isLt
  refine ⟨⟨(i 0).val / 3000, by rw [points]; omega⟩, flush0_8 _, ?_⟩
  rw [mem_block]
  obtain ⟨-, -, -, -, -, -, -, -, ⟨e0, e1⟩⟩ := block_index ⟨(i 0).val / 3000, by rw [points]; omega⟩
  intro a
  match a with
  | ⟨0, _⟩ =>
    show win0_8.index _ (0 : Fin 2) * 3000 ≤ (i 0).val ∧ (i 0).val < win0_8.index _ (0 : Fin 2) * 3000 + 3000
    rw [e0]; show (i 0).val / 3000 * 3000 ≤ (i 0).val ∧ (i 0).val < (i 0).val / 3000 * 3000 + 3000; omega
  | ⟨1, _⟩ =>
    show win0_8.index _ (1 : Fin 2) * 128 ≤ (i 1).val ∧ (i 1).val < win0_8.index _ (1 : Fin 2) * 128 + 128
    rw [e1]; omega

/-- The result array after the run is `result`. -/
theorem final (c : Dev nD) : (dats m 0 c).arrAt 8 cfg0.N = result m c :=
  (dats m 0 c).arrAt_eq_of_cover 8 (result m c) (fun t _ => flushed_eq m c t) covered

/-- The kernel's run: every weakly fair execution terminates with the result array at `result` and the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.EdgeMessage.Array

end
-- ==== Proof.lean ====
/-
  The edge-message kernel against its reference, on the extended reals.

  Both programs first look up, for every edge, the embeddings of its two end nodes (the same host operations on the
  same integer arguments and table in both), and then compute, for every edge r and output feature c,

      s(r, c)   = Σ_{k<128} h0[r,k]·wd[k,c] + Σ_{k<128} h1[r,k]·wd[128+k,c]
                  + Σ_{k<128} (Σ_{j<6} e[r,j]·we[j,k])·wd[256+k,c] + b[c],      out(r, c) = s(r, c)·σ(s(r, c)).

  The kernel does it 3000 edges at a time with three separate matrix products into zero accumulators (its narrowing of
  the operands is the identity on the extended reals) and its own logistic operation; the reference joins the three
  rows into one row of 384 entries, multiplies once, and spells σ(s) as 1 / (1 + exp(−s)). The two agree because a sum of
  384 consecutive terms is the sum of its three thirds (associativity of addition only: nothing here needs the inputs
  to be finite) and because that quotient is the logistic function at every extended real.

  The modules: `Spec` states `message` and the two facts of arithmetic; `RefMessage` reads the reference's run as
  `message`; `BodyValue` reads what the kernel's body stores at an entry; `EndRows` names the gathered end-node
  embeddings; `WholeArray` goes from the 200 blocks to the whole result array. Here the five claims are put together.
-/
import proofs.«120001_j13005160972691_1_alg».proof.Defs
import proofs.«120001_j13005160972691_1_alg».proof.Proof.Gen.Kernel
import proofs.«120001_j13005160972691_1_alg».proof.Proof.Gen.Kernel.Frame
import proofs.«120001_j13005160972691_1_alg».proof.Proof.Gen.KernelIdeal
import proofs.«120001_j13005160972691_1_alg».proof.Proof.Gen.KernelIdeal.Frame
import proofs.«120001_j13005160972691_1_alg».proof.Proof.Gen.KernelIdeal.Value
import proofs.«120001_j13005160972691_1_alg».proof.Proof.Gen.ReferenceIdeal
import proofs.«120001_j13005160972691_1_alg».proof.Proof.Gen.ReferenceIdeal.Run
import proofs.«120001_j13005160972691_1_alg».proof.Proof.Gen.ReferenceIdeal.Read
import proofs.«120001_j13005160972691_1_alg».proof.Proof.Gen.Pre_finite_inputs
import proofs.«120001_j13005160972691_1_alg».proof.Proof.RefMessage
import proofs.«120001_j13005160972691_1_alg».proof.Proof.WholeArray
import Idealize.ShloMosaic.Adequacy
import Idealize.ShloMosaic.Init

noncomputable section

namespace Cert.Proof

open Idealize.ShloMosaic Idealize.SL.Sem

/-- The gathered end-node embeddings, as the kernel's program spells the host operations and as the reference's does:
    the same operations on the same arguments. -/
theorem ends_agree (x1 : IVec Cert.KernelIdeal.S100000 32) (x2 : IVec Cert.KernelIdeal.S600000x2 32)
    (x4 : FVec Ideal Cert.KernelIdeal.S100x128 .f32) :
    Cert.EdgeMessage.Ends.endRows (Cert.EdgeMessage.Ends.firstEnd x2) x1 x4 = Cert.ReferenceIdeal.Read.val_main_v16 (F := Ideal) x1 x2 x4
    ∧ Cert.EdgeMessage.Ends.endRows (Cert.EdgeMessage.Ends.secondEnd x2) x1 x4 = Cert.ReferenceIdeal.Read.val_main_v25 (F := Ideal) x1 x2 x4 :=
  ⟨rfl, rfl⟩

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both runs end with the result array at `message` of the same arrays. -/
theorem algebraic : Cert.algebraic_KernelIdeal_ReferenceIdeal := by
  intro m ρ m' ρ' _ hagree
  refine ⟨fun c => Cert.EdgeMessage.Array.result m c, Cert.EdgeMessage.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.EdgeMessage.Ref.result_eq, (hagree c).1, (hagree c).2.1,
    (hagree c).2.2.1, (hagree c).2.2.2.1, (hagree c).2.2.2.2.1, (hagree c).2.2.2.2.2.1, (hagree c).2.2.2.2.2.2]
  rw [← (ends_agree (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))).1, ← (ends_agree (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4))).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
